-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S64x64 : Shape := ⟨2, ![64, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v15 : IVec S16x2048x2048 1) (main_c_5 : IVec S_ 1) : IVec S_ 1 :=
  let main_v16 : IVec S_ 1 := (fun x v => Host.reduce IntOp.andi x v reducesTo_S16x2048x2048_S_d0_1_2 h_S_) main_v15 main_c_5
  let main_v17 : IVec S_ 1 := andi main_v13 main_v16
  main_v17

def fn {F : FTy → Type} [FloatOps F] (main_arg0 : FVec F S16x2048x64 .f32) (main_arg1 : FVec F S16x2048x2048 .f32) (main_arg2 : FVec F S64x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_cst_4 : FVec F S_ .f32 := constant S_ .f32 0x00000000#32
  let main_v14 : FVec F S16x2048x2048 .f32 := broadcastInDim S16x2048x2048 ![] bcast_S_S16x2048x2048 main_cst_4
  let main_v15 : IVec S16x2048x2048 1 := cmpf .oge main_arg1 main_v14
  let main_c_5 : IVec S_ 1 := constantI S_ 1 1#1
  fn_part1 (F := F) main_v13 main_v15 main_c_5
-- ==== Kernel.lean ====
abbrev S16x2048x64 : Shape := ⟨3, ![16, 2048, 64]⟩
abbrev S16x2048x2048 : Shape := ⟨3, ![16, 2048, 2048]⟩
abbrev S64x64 : Shape := ⟨2, ![64, 64]⟩
abbrev S1x2048x64 : Shape := ⟨3, ![1, 2048, 64]⟩
abbrev S1x2048x2048 : Shape := ⟨3, ![1, 2048, 2048]⟩
abbrev S2048x64 : Shape := ⟨2, ![2048, 64]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S64x64, .f32⟩
  | .hbm, ⟨3, _⟩ => ⟨S16x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x2048, .f32⟩
  | .local _ .vmem, ⟨3, _⟩ => ⟨S64x64, .f32⟩
  | .local _ .vmem, ⟨4, _⟩ => ⟨S1x2048x64, .f32⟩
  | .local _ .vmem, ⟨5, _⟩ => ⟨S1x2048x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x64_S64x64_0_0 : ∀ a, (![0, 0] : Fin 2 → Nat) a + S64x64.size a ≤ S64x64.size a
  h_S64x64 : 0 < S64x64.numel
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  bitsLt_bf16_f32 : FTy.bits .bf16 < FTy.bits .f32
  reduces_S2048x2048_S2048 : S2048x2048.Reduces [1] S2048
  shapeCasts_S2048_S2048x1 : S2048.ShapeCasts S2048x1
  broadcasts_S2048x1_S2048x64 : S2048x1.Broadcasts S2048x64
  shapeCasts_S2048x64_S1x2048x64 : S2048x64.ShapeCasts S1x2048x64
  dot_S2048x64_S64x64_S2048x64_1_0_0_1_n_n_wf : DotDims.WF S2048x64 S64x64 S2048x64 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S16x2048x2048.size a
  hwx0_1 : ∀ i : grid0.Coords, EltTy.bits .f32 = 32 ∨ (Rect.block (s := S16x2048x2048) S1x2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S16x2048x64.size a
  hwx0_3 : ∀ i : grid0.Coords, EltTy.bits .f32 = 32 ∨ (Rect.block (s := S16x2048x64) S1x2048x64.size (cc0_transform_3 i) (hinb0_3 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S64x64 : Shape := ⟨2, ![64, 64]⟩
abbrev S2048x2048 : Shape := ⟨2, ![2048, 2048]⟩
abbrev S_ : Shape := ⟨0, ![]⟩
abbrev S1x2048x2048 : Shape := ⟨3, ![1, 2048, 2048]⟩
abbrev S16x2048 : Shape := ⟨2, ![16, 2048]⟩
abbrev S16x2048x1 : Shape := ⟨3, ![16, 2048, 1]⟩
abbrev S16x1x2048 : Shape := ⟨3, ![16, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S64x64, .f32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S1x2048x2048, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048, .f32⟩
  | .hbm, ⟨15, _⟩ => ⟨S_, .f32⟩
  | .hbm, ⟨16, _⟩ => ⟨S16x2048, .f32⟩
  | .hbm, ⟨17, _⟩ => ⟨S16x2048, .i1⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S_, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x1x2048, .f32⟩
  | .hbm, ⟨29, _⟩ => ⟨S16x2048x2048, .f32⟩
  | .hbm, ⟨30, _⟩ => ⟨S16x2048x2048, .f32⟩
  | .hbm, ⟨31, _⟩ => ⟨S16x2048x64, .f32⟩
  | .hbm, ⟨32, _⟩ => ⟨S16x2048x64, .f32⟩
  | .hbm, ⟨33, _⟩ => ⟨S_, .f32⟩
  | .hbm, ⟨34, _⟩ => ⟨S16x2048x64, .f32⟩
  | .hbm, ⟨35, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_cst : Ref sig .tc := ⟨.hbm, 33, rfl⟩
abbrev main_call1_v0 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S_S16x2048x64 : S_.BroadcastsInDim S16x2048x64 (![] : Fin 0 → Fin S16x2048x64.rank)
  dot_S16x2048x64_S64x64_S16x2048x64_2_0_01_1_n_n_wf : DotDims.WF S16x2048x64 S64x64 S16x2048x64 [2] [0] [0, 1] [1] [] []
  dot_S16x2048x2048_S16x2048x64_S16x2048x64_2_1_1_2_0_0_wf : DotDims.WF S16x2048x2048 S16x2048x64 S16x2048x64 [2] [1] [1] [2] [0] [0]

variable [Facts₀]

def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibRealScalars.lean ====
/-
  Scalar facts on the extended reals at real arguments.

  What a few float words denote (1.0, -0.5, +inf); the reciprocal square root and the power -1/2 of a positive real,
  which are the same number 1/√x; a comparison's one-bit answer read back as the inequality it tested; and the two
  readings a finiteness-and-sign precondition needs entry by entry: an extended real whose absolute value max x (-x)
  tests below +∞ is a real number, and one that tests at least the zero word is nonnegative.
-/
import Idealize.ShloMosaic.PureOps.Ideal
import Idealize.ShloMosaic.PureOps.Ideal.Laws
import proofs.«180018_j39444979646770_1_alg».proof.Proof.LibRealSums

noncomputable section

namespace Cert.Lib.RealScalars

open Idealize.ShloMosaic Cert.Lib

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- The word of +inf denotes +∞. -/
theorem ofBits_inf : Ideal.ofBits .f32 0x7F800000#32 = ⊤ := by
  simp [Ideal.ofBits, Ideal.ieee]

/-- The reciprocal square root of a positive real. -/
theorem rsqrt_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- A positive real to the power -1/2 is the reciprocal of its square root. -/
theorem pow_neg_half (x : ℝ) (hx : 0 < x) :
    Ideal.pow (x : EReal) ((-(1 / 2) : ℝ) : EReal) = (((Real.sqrt x)⁻¹ : ℝ) : EReal) := by
  show ((Real.rpow x (-(1 / 2)) : ℝ) : EReal) = _
  congr 1
  show x ^ (-(1 / 2) : ℝ) = _
  rw [Real.rpow_neg hx.le, Real.sqrt_eq_rpow]

/-- A positive real is greater than zero, as the one-bit answer of the comparison. -/
theorem cmp_ogt_pos (x : ℝ) (hx : 0 < x) : Ideal.cmp .ogt (x : EReal) 0 = 1#1 := by
  show BitVec.ofBool (decide ((0 : EReal) < (x : EReal))) = 1#1
  rw [decide_eq_true (by exact_mod_cast hx)]
  rfl

/-- A one-bit answer that is 1 came from a true test. -/
theorem of_ofBool_eq_one {b : Bool} (h : BitVec.ofBool b = 1#1) : b = true := by
  cases b
  · exact absurd h (by decide)
  · rfl

/-- An entry whose absolute value tests below +∞ is a real number. -/
theorem real_of_abs_lt (x : EReal) (h : Ideal.cmp .olt (max x (-x)) (Ideal.ofBits .f32 0x7F800000#32) = 1#1) :
    ∃ r : ℝ, x = (r : EReal) := by
  have h1 : decide (max x (-x) < Ideal.ofBits .f32 0x7F800000#32) = true := of_ofBool_eq_one h
  rw [ofBits_inf] at h1
  exact RealSums.exists_real_of_max_neg_lt_top (of_decide_eq_true h1)

/-- An entry that tests at least zero is nonnegative. -/
theorem nonneg_of_ge (x : EReal) (h : Ideal.cmp .oge x (Ideal.ofBits .f32 0x00000000#32) = 1#1) : 0 ≤ x := by
  have h1 : decide (Ideal.ofBits .f32 0x00000000#32 ≤ x) = true := of_ofBool_eq_one h
  rw [Ideal.ofBits_zero_f32] at h1
  exact of_decide_eq_true h1

end Cert.Lib.RealScalars

end
-- ==== Proof.NormSpec.lean ====
/-
  A graph convolution with symmetric normalization, as two functions of one batch's arrays, and the law that joins them.

  For node features X (one row per node), weights W and an adjacency matrix A, write T = X W for the transformed
  features.  One program adds the self-loops first: with Ã = A + I and the degrees r(n) = Σₘ Ã(n, m) it scales by
  d(n) = r(n)^(-1/2) where r(n) > 0 (and by 0 elsewhere) and returns max(Σₘ (d(n) Ã(n, m) d(m)) T(m, u), 0).  The other
  never forms Ã: with s(n) = Σₘ A(n, m) + 1 and d(n) = 1/√s(n) it returns
  max(d(n) Σₘ A(n, m) (T(m, u) d(m)) + d(n)² T(n, u), 0), the self-loop's share added separately.

  When every entry is a real number and A is entrywise nonnegative, every degree is at least 1, the two scalings are the
  same positive real, and the two results agree: the sum over m splits into A's share and the identity's share, and the
  identity's share keeps only the term m = n.  Nonnegativity is what keeps the degrees positive; a degree that is zero
  or negative makes the two scalings differ.
-/
import Idealize.ShloMosaic.PureOps.Ideal
import Idealize.ShloMosaic.PureOps.Ideal.Laws
import Idealize.ShloMosaic.Lib.ValueIdx
import proofs.«180018_j39444979646770_1_alg».proof.Proof.LibRealSums
import proofs.«180018_j39444979646770_1_alg».proof.Proof.LibRealScalars

noncomputable section

namespace Cert.GraphConv

open Idealize.ShloMosaic Cert.Lib Cert.Lib.RealScalars
open scoped BigOperators

/-! ## The two results for one batch, over any finite sets of nodes and features -/

variable {ι κ υ : Type} [Fintype ι] [DecidableEq ι] [Fintype κ]

/-- The transformed features T = X W at node `n`, output feature `u`. -/
def feat (X : ι → κ → EReal) (W : κ → υ → EReal) (n : ι) (u : υ) : EReal := ∑ f, X n f * W f u

/-- The scaling that never forms A + I: the reciprocal square root of (row sum of A) + 1. -/
def scaleK (A : ι → ι → EReal) (n : ι) : EReal :=
  Ideal.rsqrt ((∑ m, A n m) + Ideal.ofBits .f32 0x3F800000#32)

/-- The result with the self-loop's share added separately:
    max(d(n) Σₘ A(n, m) (T(m, u) d(m)) + d(n)² T(n, u), 0). -/
def outK (X : ι → κ → EReal) (A : ι → ι → EReal) (W : κ → υ → EReal) (n : ι) (u : υ) : EReal :=
  max (scaleK A n * (∑ m, A n m * (feat X W m u * scaleK A m)) + (scaleK A n * scaleK A n) * feat X W n u)
    (Ideal.ofBits .f32 0x00000000#32)

/-- The degree of node `n` in A + E, summed from zero (E is the identity matrix). -/
def degR (A E : ι → ι → EReal) (n : ι) : EReal :=
  Ideal.ofBits .f32 0x00000000#32 + ∑ m, (A n m + E n m)

/-- The guarded scaling: the degree to the power -1/2 where the degree is positive, zero elsewhere. -/
def scaleR (A E : ι → ι → EReal) (n : ι) : EReal :=
  Scalar.select (Ideal.cmp .ogt (degR A E n) (Ideal.ofBits .f32 0x00000000#32))
    (Ideal.pow (degR A E n) (Ideal.ofBits .f32 0xBF000000#32)) (Ideal.ofBits .f32 0x00000000#32)

/-- The result through the normalized matrix: max(Σₘ ((d(n) Ã(n, m)) d(m)) T(m, u), 0) with Ã = A + E. -/
def outR (X : ι → κ → EReal) (A E : ι → ι → EReal) (W : κ → υ → EReal) (n : ι) (u : υ) : EReal :=
  max (∑ m, ((scaleR A E n * (A n m + E n m)) * scaleR A E m) * feat X W m u) (Ideal.ofBits .f32 0x00000000#32)

/-! ## The law on the reals -/

/-- Over the reals: the sum through the normalized matrix A + I splits into A's share and the self-loop's term. -/
theorem sum_norm_split (d : ι → ℝ) (a : ι → ι → ℝ) (t : ι → ℝ) (n : ι) :
    ∑ m, ((d n * (a n m + (if n = m then 1 else 0))) * d m) * t m
      = d n * (∑ m, a n m * (t m * d m)) + (d n * d n) * t n := by
  have h : ∀ m, ((d n * (a n m + (if n = m then 1 else 0))) * d m) * t m
      = d n * (a n m * (t m * d m)) + (if n = m then (d n * d m) * t m else 0) := by
    intro m; split_ifs <;> ring
  rw [Finset.sum_congr rfl (fun m _ => h m), Finset.sum_add_distrib, ← Finset.mul_sum, Finset.sum_ite_eq]
  rw [if_pos (Finset.mem_univ n)]

/-- With real entries and a nonnegative adjacency the two results are equal. -/
theorem outR_eq_outK (x : ι → κ → ℝ) (a : ι → ι → ℝ) (w : κ → υ → ℝ) (ha : ∀ n m, 0 ≤ a n m)
    (E : ι → ι → EReal) (hE : ∀ n m, E n m = (((if n = m then 1 else 0 : ℝ)) : EReal)) (n : ι) (u : υ) :
    outR (fun n f => (x n f : EReal)) (fun n m => (a n m : EReal)) E (fun f u => (w f u : EReal)) n u
      = outK (fun n f => (x n f : EReal)) (fun n m => (a n m : EReal)) (fun f u => (w f u : EReal)) n u := by
  have hs : ∀ n, 0 ≤ ∑ m, a n m := fun n => Finset.sum_nonneg (fun m _ => ha n m)
  have hfeat : ∀ m, feat (fun n f => (x n f : EReal)) (fun f u => (w f u : EReal)) m u
      = ((∑ f, x m f * w f u : ℝ) : EReal) := fun m => RealSums.sum_coe_mul_coe _ _ _
  have hK : ∀ n, scaleK (fun n m => (a n m : EReal)) n = (((Real.sqrt (∑ m, a n m + 1))⁻¹ : ℝ) : EReal) := by
    intro n
    unfold scaleK
    rw [← RealSums.coe_sum, ofBits_one, ← EReal.coe_add]
    exact rsqrt_pos _ (by linarith [hs n])
  have hdeg : ∀ n, degR (fun n m => (a n m : EReal)) E n = ((∑ m, a n m + 1 : ℝ) : EReal) := by
    intro n
    unfold degR
    rw [Ideal.ofBits_zero_f32, zero_add]
    simp only [hE, ← EReal.coe_add]
    rw [← RealSums.coe_sum, Finset.sum_add_distrib, Finset.sum_ite_eq, if_pos (Finset.mem_univ n)]
  have hR : ∀ n, scaleR (fun n m => (a n m : EReal)) E n = (((Real.sqrt (∑ m, a n m + 1))⁻¹ : ℝ) : EReal) := by
    intro n
    have hp : 0 < ∑ m, a n m + 1 := by linarith [hs n]
    unfold scaleR
    rw [hdeg, Ideal.ofBits_zero_f32, cmp_ogt_pos _ hp, ValueIdx.select_one, ofBits_neg_half, pow_neg_half _ hp]
  unfold outR outK
  simp only [hfeat, hK, hR, hE]
  congr 1
  simp only [← EReal.coe_mul, ← EReal.coe_add, ← RealSums.coe_sum]
  exact congrArg _ (sum_norm_split (fun n => (Real.sqrt (∑ m, a n m + 1))⁻¹) a (fun m => ∑ f, x m f * w f u) n)

/-! ## The whole result array -/

/-- The result array of the batched graph convolution, index by index: at (b, n, u) the self-loop-separated form of
    batch b's slices of the node features and the adjacency, with the shared weights. -/
def G (X : (⟨3, ![16, 2048, 64]⟩ : Shape).Idx → EReal) (A : (⟨3, ![16, 2048, 2048]⟩ : Shape).Idx → EReal)
    (W : (⟨2, ![64, 64]⟩ : Shape).Idx → EReal) : (⟨3, ![16, 2048, 64]⟩ : Shape).Idx → EReal :=
  fun i => outK (fun n f => X (ValueIdx.ix3 (i 0) n f)) (fun n m => A (ValueIdx.ix3 (i 0) n m))
    (fun f u => W (ValueIdx.ix2 f u)) (i 1) (i 2)

end Cert.GraphConv

end
-- ==== Proof.RefRead.lean ====
/-
  The reference program's result read at an index.

  Stage by stage, at explicit coordinates (batch b, node n, neighbour m, output feature u): the identity matrix's entry
  is 1 on the diagonal and 0 off it; A + I at (b, n, m); the degree of node n as the sum over m from zero; the guarded
  scaling of node n; the normalized entry (d(n) Ã(n, m)) d(m); the transformed features as the sum over input features.
  Together: the result at (b, n, u) is the normalized-matrix form of the graph convolution of batch b's slices.
-/
import proofs.«180018_j39444979646770_1_alg».proof.Proof.Gen.ReferenceIdeal.Read
import proofs.«180018_j39444979646770_1_alg».proof.Proof.NormSpec

noncomputable section

namespace Cert.GraphConv.Ref

open Cert.ReferenceIdeal Cert.ReferenceIdeal.Gen Cert.ReferenceIdeal.Read
open Idealize.ShloMosaic Idealize.ShloMosaic.ValueIdx Cert.GraphConv
open scoped BigOperators

/-- The identity matrix the program builds by comparing a row counter with a column counter. -/
def eyeR (n m : Fin 2048) : EReal := val_main_v5 (F := Ideal) (ix2 n m)

/-- Two counters below 2048, as 32-bit words, are equal exactly when the numbers are. -/
theorem eye_word (n m : Fin 2048) :
    IntOp.cmpi .eq (IntOp.addi (BitVec.ofNat 32 n.val) 0#32) (BitVec.ofNat 32 m.val) = if n = m then 1#1 else 0#1 := by
  unfold IntOp.cmpi IntOp.addi
  rw [BitVec.add_zero]
  by_cases h : n = m
  · subst h; simp
  · rw [if_neg h]
    have hne : BitVec.ofNat 32 n.val ≠ BitVec.ofNat 32 m.val := by
      intro e
      have e' := congrArg BitVec.toNat e
      simp only [BitVec.toNat_ofNat] at e'
      have hn := n.isLt
      have hm := m.isLt
      rw [Nat.mod_eq_of_lt (by omega), Nat.mod_eq_of_lt (by omega)] at e'
      exact h (Fin.ext e')
    rw [show (BitVec.ofNat 32 n.val == BitVec.ofNat 32 m.val) = false from beq_false_of_ne hne]
    rfl

/-- The identity matrix's entry: 1 on the diagonal, 0 off it. -/
theorem eyeR_eq (n m : Fin 2048) : eyeR n m = (((if n = m then 1 else 0 : ℝ)) : EReal) := by
  unfold eyeR
  rw [val_main_v5_apply, val_main_v4_apply, val_main_v3_apply, val_main_v0_apply, val_main_v1_apply, val_main_v2_apply,
    val_main_c_apply]
  show (((IntOp.cmpi .eq (IntOp.addi (BitVec.ofNat 32 n.val) 0#32) (BitVec.ofNat 32 m.val)).toNat : ℝ) : EReal) = _
  rw [eye_word]
  by_cases h : n = m
  · rw [if_pos h, if_pos h]; simp
  · rw [if_neg h, if_neg h]; simp

variable (X : (⟨S16x2048x64, .f32⟩ : BufTy).Contents (Elt Ideal)) (A : (⟨S16x2048x2048, .f32⟩ : BufTy).Contents (Elt Ideal))
  (W : (⟨S64x64, .f32⟩ : BufTy).Contents (Elt Ideal))

/-- A + I at (b, n, m). -/
theorem adj_apply (b : Fin 16) (n m : Fin 2048) :
    val_main_v8 (F := Ideal) A (ix3 b n m) = A (ix3 b n m) + eyeR n m := by
  have e : idx_main_v6 (idx_main_v7 (ix3 b n m)) = (ix2 n m : S2048x2048.Idx) := by
    funext a; match a with | ⟨0, _⟩ => rfl | ⟨1, _⟩ => rfl
  rw [val_main_v8_apply, val_main_v7_apply, val_main_v6_apply, e]
  rfl

/-- The degree of node n of batch b in A + I. -/
theorem deg_apply (b : Fin 16) (n : Fin 2048) :
    val_main_v9 (F := Ideal) A (ix2 b n) = degR (fun n m => A (ix3 b n m)) eyeR n := by
  rw [val_main_v9_apply]
  unfold degR
  refine congrArg₂ (· + ·) rfl (Finset.sum_congr rfl fun k _ => ?_)
  have e : idx_main_v9 (ix2 b n) k = (ix3 b n k : S16x2048x2048.Idx) := by
    funext a; match a with | ⟨0, _⟩ => rfl | ⟨1, _⟩ => rfl | ⟨2, _⟩ => rfl
  rw [e]
  exact adj_apply A b n k

/-- The guarded scaling of node n of batch b. -/
theorem scale_apply (b : Fin 16) (n : Fin 2048) :
    val_main_v14 (F := Ideal) A (ix2 b n) = scaleR (fun n m => A (ix3 b n m)) eyeR n := by
  rw [val_main_v14_apply, val_main_v11_apply, val_main_v13_apply, deg_apply, val_main_v10_apply, val_main_cst_0_apply,
    val_main_v12_apply, val_main_cst_1_apply, val_main_call0_v1_apply, val_main_call0_v0_apply, val_main_cst_2_apply]
  rfl

/-- The normalized matrix's entry at (b, n, m). -/
theorem norm_apply (b : Fin 16) (n m : Fin 2048) :
    val_main_v20 (F := Ideal) A (ix3 b n m)
      = (scaleR (fun n m => A (ix3 b n m)) eyeR n * (A (ix3 b n m) + eyeR n m)) * scaleR (fun n m => A (ix3 b n m)) eyeR m := by
  have e1 : idx_main_v15 (idx_main_v16 (ix3 b n m)) = (ix2 b n : S16x2048.Idx) := by
    funext a; match a with | ⟨0, _⟩ => rfl | ⟨1, _⟩ => rfl
  have e2 : idx_main_v18 (idx_main_v19 (ix3 b n m)) = (ix2 b m : S16x2048.Idx) := by
    funext a; match a with | ⟨0, _⟩ => rfl | ⟨1, _⟩ => rfl
  rw [val_main_v20_apply, val_main_v17_apply, val_main_v16_apply, val_main_v15_apply, val_main_v19_apply, val_main_v18_apply,
    e1, e2, scale_apply, scale_apply, adj_apply]
  rfl

/-- The transformed features at (b, n, u). -/
theorem feat_apply (b : Fin 16) (n : Fin 2048) (u : Fin 64) :
    val_main_v21 (F := Ideal) X W (ix3 b n u) = feat (fun n f => X (ix3 b n f)) (fun f u => W (ix2 f u)) n u := by
  rw [val_main_v21_apply]
  unfold feat
  refine Finset.sum_congr rfl fun k _ => ?_
  have el : lidx_main_v21 (ix3 b n u) k = (ix3 b n k : S16x2048x64.Idx) := by
    funext a; match a with | ⟨0, _⟩ => rfl | ⟨1, _⟩ => rfl | ⟨2, _⟩ => rfl
  have er : ridx_main_v21 (ix3 b n u) k = (ix2 k u : S64x64.Idx) := by
    funext a; match a with | ⟨0, _⟩ => rfl | ⟨1, _⟩ => rfl
  rw [el, er]

/-- The reference's result at an index: the normalized-matrix form of the graph convolution of that batch's slices. -/
theorem result_apply (i : S16x2048x64.Idx) :
    val_main_v23 (F := Ideal) X A W i
      = outR (fun n f => X (ix3 (i 0) n f)) (fun n m => A (ix3 (i 0) n m)) eyeR (fun f u => W (ix2 f u)) (i 1) (i 2) := by
  obtain ⟨b, n, u, rfl⟩ : ∃ (b : Fin 16) (n : Fin 2048) (u : Fin 64), i = ix3 b n u := ⟨i 0, i 1, i 2, eq_ix3 i⟩
  rw [val_main_v23_apply, val_main_v22_apply, val_main_call1_v0_apply, val_main_call1_cst_apply]
  unfold outR
  refine congrArg₂ max (Finset.sum_congr rfl fun k _ => ?_) rfl
  have el : lidx_main_v22 (ix3 b n u) k = (ix3 b n k : S16x2048x2048.Idx) := by
    funext a; match a with | ⟨0, _⟩ => rfl | ⟨1, _⟩ => rfl | ⟨2, _⟩ => rfl
  have er : ridx_main_v22 (ix3 b n u) k = (ix3 b k u : S16x2048x64.Idx) := by
    funext a; match a with | ⟨0, _⟩ => rfl | ⟨1, _⟩ => rfl | ⟨2, _⟩ => rfl
  rw [el, er, norm_apply, feat_apply]

end Cert.GraphConv.Ref

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.KernelPayload.lean ====
/-
  The kernel body's stored value read at an index.

  For one batch the body holds the node features x (a [1, N, F] block), the weights w and the adjacency a (a [1, N, N]
  block).  Read at row n and output feature u, its pieces are: the transformed features T(n, u) = Σ_f x(n, f) w(f, u) (a
  matrix product into a zero accumulator); the scaling column d(n) = rsqrt(Σₘ a(n, m) + 1) (a lane sum, made a column);
  the aggregation Σₘ a(n, m) (T(m, u) d(m)) (a second matrix product); and the stored value
  max(d(n) · aggregation + d(n)² T(n, u), 0).  Format changes are the identity on the extended reals.
-/
import proofs.«180018_j39444979646770_1_alg».proof.Proof.Gen.KernelIdeal.Skeleton
import proofs.«180018_j39444979646770_1_alg».proof.Proof.NormSpec
import proofs.«180018_j39444979646770_1_alg».proof.Proof.LibPlainDot
import proofs.«180018_j39444979646770_1_alg».proof.Proof.LibRowLayout
import Idealize.ShloMosaic.Lib.Pipeline.Value
import Idealize.ShloMosaic.Lib.ValueLayout

noncomputable section

namespace Cert.GraphConv.Ker

open Cert.KernelIdeal Cert.KernelIdeal.Gen
open Idealize.ShloMosaic Idealize.ShloMosaic.ValueIdx Cert.GraphConv Cert.KernelIdeal.MvnKernel Cert.Lib
open scoped BigOperators

variable (x : Vec Ideal S1x2048x64 .f32) (w : Vec Ideal S64x64 .f32) (a : Vec Ideal S1x2048x2048 .f32)

/-- The batch's node features as a matrix. -/
def xm : FVec Ideal S2048x64 .f32 := shapeCast S2048x64 x shapeCasts_S1x2048x64_S2048x64
/-- The batch's adjacency as a matrix. -/
def am : FVec Ideal S2048x2048 .f32 := shapeCast S2048x2048 a shapeCasts_S1x2048x2048_S2048x2048

theorem xm_apply (n : Fin 2048) (f : Fin 64) : xm x (ix2 n f) = x (ix3 (0 : Fin 1) n f) := by
  unfold xm
  rw [shapeCast_dropUnit_apply ![2048, 64] x shapeCasts_S1x2048x64_S2048x64 (ix2 n f)]
  exact congrArg x (funext fun d => by match d with | ⟨0, _⟩ => rfl | ⟨1, _⟩ => rfl | ⟨2, _⟩ => rfl)

theorem am_apply (n m : Fin 2048) : am a (ix2 n m) = a (ix3 (0 : Fin 1) n m) := by
  unfold am
  rw [shapeCast_dropUnit_apply ![2048, 2048] a shapeCasts_S1x2048x2048_S2048x2048 (ix2 n m)]
  exact congrArg a (funext fun d => by match d with | ⟨0, _⟩ => rfl | ⟨1, _⟩ => rfl | ⟨2, _⟩ => rfl)

/-- The transformed features, a matrix product into a zero accumulator. -/
def tm : FVec Ideal S2048x64 .f32 :=
  matmul dot_S2048x64_S64x64_S2048x64_1_0_0_1_n_n none (truncf .bf16 (xm x) bitsLt_bf16_f32) (truncf .bf16 w bitsLt_bf16_f32)
    (constant S2048x64 .f32 0x00000000#32)

theorem tm_apply (n : Fin 2048) (u : Fin 64) :
    tm x w (ix2 n u) = feat (fun n f => x (ix3 (0 : Fin 1) n f)) (fun f u => w (ix2 f u)) n u := by
  unfold tm
  simp only [matmul]
  rw [PlainDot.matmul_zero_apply dot_S2048x64_S64x64_S2048x64_1_0_0_1_n_n rfl]
  unfold PlainDot.mm feat
  refine Finset.sum_congr rfl fun k _ => ?_
  have el : PlainDot.rowIdx (ix2 n u) k = (ix2 n k : (⟨2, ![2048, 64]⟩ : Shape).Idx) := by
    funext d; match d with | ⟨0, _⟩ => rfl | ⟨1, _⟩ => rfl
  have er : PlainDot.colIdx (K := 64) (ix2 n u) k = (ix2 k u : (⟨2, ![64, 64]⟩ : Shape).Idx) := by
    funext d; match d with | ⟨0, _⟩ => rfl | ⟨1, _⟩ => rfl
  rw [el, er]
  show xm x (ix2 n k) * w (ix2 k u) = _
  rw [xm_apply]

/-- The scaling column: the reciprocal square root of each row's sum plus one. -/
def dm : FVec Ideal S2048x1 .f32 :=
  rsqrt (addf (shapeCast S2048x1 (multiReduction .add [1] S2048 (am a) 0x00000000#32 reduces_S2048x2048_S2048 (.inl rfl) rfl)
    shapeCasts_S2048_S2048x1) (broadcast S2048x1 (Scalar.ofBits .f32 0x3F800000#32)))

/-- The lane sum of the adjacency at row n: the sum of the row's entries. -/
theorem rowsum_apply (n : Fin 2048) :
    multiReduction .add [1] S2048 (am a) 0x00000000#32 reduces_S2048x2048_S2048 (.inl rfl) rfl (ix1 n)
      = ∑ m : Fin 2048, a (ix3 (0 : Fin 1) n m) :=
  (multiReduction_add_row (am a) 0x00000000#32 reduces_S2048x2048_S2048 (.inl rfl) rfl n).trans
    (Finset.sum_congr rfl fun k _ => am_apply a n k)

theorem dm_apply (n : Fin 2048) (c : Fin 1) : dm a (ix2 n c) = scaleK (fun n m => a (ix3 (0 : Fin 1) n m)) n := by
  unfold dm scaleK
  show Ideal.rsqrt (shapeCast S2048x1 (multiReduction .add [1] S2048 (am a) 0x00000000#32 reduces_S2048x2048_S2048 (.inl rfl) rfl)
    shapeCasts_S2048_S2048x1 (ix2 n c) + Ideal.ofBits .f32 0x3F800000#32) = _
  exact congrArg (fun s => Ideal.rsqrt (s + Ideal.ofBits .f32 0x3F800000#32))
    ((shapeCast_a_a1_apply _ shapeCasts_S2048_S2048x1 n c).trans (rowsum_apply a n))

/-- The aggregation: the adjacency times the scaled transformed features. -/
def gm : FVec Ideal S2048x64 .f32 :=
  matmul dot_S2048x2048_S2048x64_S2048x64_1_0_0_1_n_n none (truncf .bf16 (am a) bitsLt_bf16_f32)
    (truncf .bf16 (mulf (tm x w) (broadcastTo S2048x64 (dm a) broadcasts_S2048x1_S2048x64)) bitsLt_bf16_f32)
    (constant S2048x64 .f32 0x00000000#32)

theorem gm_apply (n : Fin 2048) (u : Fin 64) :
    gm x w a (ix2 n u) = ∑ m : Fin 2048, a (ix3 (0 : Fin 1) n m) *
      (feat (fun n f => x (ix3 (0 : Fin 1) n f)) (fun f u => w (ix2 f u)) m u * scaleK (fun n m => a (ix3 (0 : Fin 1) n m)) m) := by
  unfold gm
  simp only [matmul]
  rw [PlainDot.matmul_zero_apply dot_S2048x2048_S2048x64_S2048x64_1_0_0_1_n_n rfl]
  unfold PlainDot.mm
  refine Finset.sum_congr rfl fun k _ => ?_
  have el : PlainDot.rowIdx (ix2 n u) k = (ix2 n k : (⟨2, ![2048, 2048]⟩ : Shape).Idx) := by
    funext d; match d with | ⟨0, _⟩ => rfl | ⟨1, _⟩ => rfl
  have er : PlainDot.colIdx (K := 2048) (ix2 n u) k = (ix2 k u : (⟨2, ![2048, 64]⟩ : Shape).Idx) := by
    funext d; match d with | ⟨0, _⟩ => rfl | ⟨1, _⟩ => rfl
  rw [el, er]
  show am a (ix2 n k) * (tm x w (ix2 k u) * broadcastTo S2048x64 (dm a) broadcasts_S2048x1_S2048x64 (ix2 k u)) = _
  rw [am_apply, tm_apply, broadcastTo_a1_ab_apply, dm_apply]

/-- The body's stored value is built from these pieces. -/
theorem pay_eq : k0_pay1 (F := Ideal) x w a
    = shapeCast S1x2048x64 (maximumf (addf (mulf (broadcastTo S2048x64 (dm a) broadcasts_S2048x1_S2048x64) (gm x w a))
        (mulf (broadcastTo S2048x64 (mulf (dm a) (dm a)) broadcasts_S2048x1_S2048x64) (tm x w)))
        (broadcast S2048x64 (Scalar.ofBits .f32 0x00000000#32))) shapeCasts_S2048x64_S1x2048x64 := rfl

/-- The stored value at row n, output feature u: the graph convolution with the self-loop's share added separately. -/
theorem pay_apply (n : Fin 2048) (u : Fin 64) :
    k0_pay1 (F := Ideal) x w a (ix3 (0 : Fin 1) n u)
      = outK (fun n f => x (ix3 (0 : Fin 1) n f)) (fun n m => a (ix3 (0 : Fin 1) n m)) (fun f u => w (ix2 f u)) n u := by
  rw [pay_eq, shapeCast_addUnit_apply ![2048, 64] _ shapeCasts_S2048x64_S1x2048x64 (ix3 (0 : Fin 1) n u)]
  have e : (fun d : Fin 2 => (ix3 (0 : Fin 1) n u : (⟨3, ![1, 2048, 64]⟩ : Shape).Idx) d.succ) = (ix2 n u : (⟨2, ![2048, 64]⟩ : Shape).Idx) := by
    funext d; match d with | ⟨0, _⟩ => rfl | ⟨1, _⟩ => rfl
  rw [e]
  show max (broadcastTo S2048x64 (dm a) broadcasts_S2048x1_S2048x64 (ix2 n u) * gm x w a (ix2 n u)
      + broadcastTo S2048x64 (mulf (dm a) (dm a)) broadcasts_S2048x1_S2048x64 (ix2 n u) * tm x w (ix2 n u))
      (Ideal.ofBits .f32 0x00000000#32) = _
  rw [broadcastTo_a1_ab_apply, broadcastTo_a1_ab_apply, gm_apply, tm_apply]
  show max (dm a (ix2 n 0) * _ + (dm a (ix2 n 0) * dm a (ix2 n 0)) * _) _ = _
  rw [dm_apply]
  rfl

end Cert.GraphConv.Ker

end
-- ==== Proof.KernelValue.lean ====
/-
  From the blocks to the array: what the kernel's result array holds after the run.

  The grid has one point per batch.  At point t the body sees batch t of the node features and of the adjacency (each a
  [1, N, ·] block whose first coordinate is t) and the whole weight matrix, and writes batch t of the result.  So what
  point t writes back is block t of the result array G of the three argument arrays; the sixteen blocks cover the
  result array (index i lies in block i₀); hence after the run the array is G of the arguments.
-/
import proofs.«180018_j39444979646770_1_alg».proof.Proof.Gen.KernelIdeal.Value
import proofs.«180018_j39444979646770_1_alg».proof.Proof.KernelPayload

noncomputable section

namespace Cert.GraphConv.KerValue

open Cert.KernelIdeal Cert.KernelIdeal.Gen Idealize.ShloMosaic Idealize.ShloMosaic.TcCoe Idealize.SL.Sem
open Idealize.ShloMosaic.ValueIdx Cert.GraphConv
open Idealize.ShloMosaic.Pipeline (Dat)

/-- One batch: a body whose blocks are batch b of the arrays stores batch b of G. -/
theorem block_eq (x : Vec Ideal S1x2048x64 .f32) (w : Vec Ideal S64x64 .f32) (a : Vec Ideal S1x2048x2048 .f32)
    (X : S16x2048x64.Idx → EReal) (A : S16x2048x2048.Idx → EReal) (W : S64x64.Idx → EReal) (b : Fin 16)
    (hx : ∀ (n : Fin 2048) (f : Fin 64), x (ix3 (0 : Fin 1) n f) = X (ix3 b n f))
    (ha : ∀ (n k : Fin 2048), a (ix3 (0 : Fin 1) n k) = A (ix3 b n k))
    (hw : ∀ (f u : Fin 64), w (ix2 f u) = W (ix2 f u))
    (j : S1x2048x64.Idx) (i : S16x2048x64.Idx) (h0 : (i 0).val = b.val) (h1 : (i 1).val = (j 1).val)
    (h2 : (i 2).val = (j 2).val) :
    k0_pay1 (F := Ideal) x w a j = G X A W i := by
  obtain ⟨z, n, u, rfl⟩ : ∃ (z : Fin 1) (n : Fin 2048) (u : Fin 64), j = ix3 z n u := ⟨j 0, j 1, j 2, eq_ix3 j⟩
  have hz : z = 0 := Subsingleton.elim _ _
  subst hz
  rw [Ker.pay_apply]
  unfold G
  have e0 : i 0 = b := Fin.ext h0
  have e1 : i 1 = n := Fin.ext h1
  have e2 : i 2 = u := Fin.ext h2
  rw [e0, e1, e2]
  simp only [hx, ha, hw]

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the batched windows sit at block (t, 0, 0), the weights at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What point t writes back is block t of G of the argument arrays. -/
theorem flushed_eq (c : Dev nD) (t : Fin cfg0.N) :
    (dats m 0 c).flushed 3 t
      = ((cfg0.win 3).blk t).view.read (Elt Ideal) (G (V m c main_arg0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S1x2048x64) hz3, View.ld_unit_zero (S := S1x2048x2048) hz3,
    View.ld_unit_zero (S := S64x64) hz2]
  obtain ⟨f00, f01, f02, f10, f11, f12, f20, f21, f30, f31, f32⟩ := idx_facts t
  have hN : grid0.N = 16 := N_0
  have ht : t.val < 16 := by
    have h := t.isLt
    have hc : cfg0.N = 16 := N_0
    omega
  funext j
  show k0_pay1 (F := Ideal) (iblk m c 0 t) (iblk m c 2 t) (iblk m c 1 t) j
    = G (V m c main_arg0) (V m c main_arg1) (V m c main_arg2) (((cfg0.win 3).blk t).view.emb j)
  refine block_eq _ _ _ _ _ _ ⟨t.val, ht⟩ (fun n f => ?_) (fun n k => ?_) (fun f u => ?_) j _ ?_ ?_ ?_
  · show V m c main_arg0 (((cfg0.win 0).blk t).view.emb (ix3 (0 : Fin 1) n f)) = _
    refine congrArg _ (funext fun d => Fin.ext ?_)
    match d with
    | ⟨0, _⟩ => show win0_0.index t (0 : Fin 3) * 1 + 1 * 0 = t.val; omega
    | ⟨1, _⟩ => show win0_0.index t (1 : Fin 3) * 2048 + 1 * n.val = n.val; omega
    | ⟨2, _⟩ => show win0_0.index t (2 : Fin 3) * 64 + 1 * f.val = f.val; omega
  · show V m c main_arg1 (((cfg0.win 1).blk t).view.emb (ix3 (0 : Fin 1) n k)) = _
    refine congrArg _ (funext fun d => Fin.ext ?_)
    match d with
    | ⟨0, _⟩ => show win0_1.index t (0 : Fin 3) * 1 + 1 * 0 = t.val; omega
    | ⟨1, _⟩ => show win0_1.index t (1 : Fin 3) * 2048 + 1 * n.val = n.val; omega
    | ⟨2, _⟩ => show win0_1.index t (2 : Fin 3) * 2048 + 1 * k.val = k.val; omega
  · show V m c main_arg2 (((cfg0.win 2).blk t).view.emb (ix2 f u)) = _
    refine congrArg _ (funext fun d => Fin.ext ?_)
    match d with
    | ⟨0, _⟩ => show win0_2.index t (0 : Fin 2) * 64 + 1 * f.val = f.val; omega
    | ⟨1, _⟩ => show win0_2.index t (1 : Fin 2) * 64 + 1 * u.val = u.val; omega
  · show win0_3.index t (0 : Fin 3) * 1 + 1 * (j 0).val = t.val
    have hj : (j 0).val < 1 := (j 0).isLt
    omega
  · show win0_3.index t (1 : Fin 3) * 2048 + 1 * (j 1).val = (j 1).val
    omega
  · show win0_3.index t (2 : Fin 3) * 64 + 1 * (j 2).val = (j 2).val
    omega

/-- An index of the result array is in point t's block iff each coordinate is in the block's range on its axis. -/
theorem mem_blk (t : Fin cfg0.N) (i : S16x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v0).slice (win0_3.rect t)).set ↔ _
  rw [View.set_slice_whole, Rect.mem_set_unit]
  exact Iff.rfl

/-- Every index of the result array lies in the block of the point numbered by its batch coordinate. -/
theorem cover (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  have hN : grid0.N = 16 := N_0
  obtain ⟨t, ht⟩ : ∃ t : Fin cfg0.N, t.val = (i 0).val := ⟨⟨(i 0).val, by show (i 0).val < grid0.N; omega⟩, rfl⟩
  obtain ⟨-, -, -, -, -, -, -, -, f30, f31, f32⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 64 ≤ (i 2).val ∧ (i 2).val < win0_3.index t (2 : Fin 3) * 64 + 64
    omega

/-- After the run the result array is G of the argument arrays. -/
theorem final (c : Dev nD) :
    (dats m 0 c).arrAt 3 cfg0.N = G (m ((c : Thread nD τ).loc main_arg0)) (m ((c : Thread nD τ).loc main_arg1))
      (m ((c : Thread nD τ).loc main_arg2)) :=
  (dats m 0 c).arrAt_eq_of_cover 3 (G (V m c main_arg0) (V m c main_arg1) (V m c main_arg2))
    (fun t _ => flushed_eq m c t) cover

/-- The kernel's run: every weakly fair execution terminates with the result array at G of the arguments, the
    arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.GraphConv.KerValue

end
-- ==== Proof.Domain.lean ====
/-
  What the precondition says of the three input arrays.

  The precondition is the conjunction of four tests, each taken over a whole array and joined by a logical and: every
  entry of the node features, of the adjacency and of the weights has an absolute value below +∞, and every entry of
  the adjacency is at least zero.  An extended real whose absolute value is below +∞ is a real number; so under the
  precondition all three arrays hold real numbers and the adjacency is entrywise nonnegative.
-/
import proofs.«180018_j39444979646770_1_alg».proof.Proof.Gen.Pre_finite_inputs
import proofs.«180018_j39444979646770_1_alg».proof.Proof.LibRealSums
import proofs.«180018_j39444979646770_1_alg».proof.Proof.LibRealScalars
import Idealize.ShloMosaic.Lib.ReduceAll
import Idealize.ShloMosaic.Lib.ValueIdx
import Idealize.ShloMosaic.PureOps.Ideal
import Idealize.ShloMosaic.PureOps.Ideal.Laws

noncomputable section

namespace Cert.GraphConv.Domain

open Idealize.ShloMosaic Cert.Pre_finite_inputs Cert.Lib Cert.Lib.RealScalars

instance : Subsingleton S_.Idx := ⟨fun a b => funext fun d => d.elim0⟩

/-- Under the precondition the three arrays hold real numbers and the adjacency is entrywise nonnegative. -/
theorem of_pre (X : FVec Ideal S16x2048x64 .f32) (A : FVec Ideal S16x2048x2048 .f32) (W : FVec Ideal S64x64 .f32)
    (h : fn (F := Ideal) X A W = fun _ => 1#1) :
    (∀ i, ∃ r : ℝ, X i = (r : EReal)) ∧ (∀ i, ∃ r : ℝ, A i = (r : EReal)) ∧ (∀ i, ∃ r : ℝ, W i = (r : EReal))
      ∧ (∀ i, 0 ≤ A i) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt (X i) (Host.reduce_andi_all _ _ _ _ _ h1 i)
  · exact real_of_abs_lt (A i) (Host.reduce_andi_all _ _ _ _ _ h2 i)
  · exact real_of_abs_lt (W i) (Host.reduce_andi_all _ _ _ _ _ h3 i)
  · exact nonneg_of_ge (A i) (Host.reduce_andi_all _ _ _ _ _ h4 i)

end Cert.GraphConv.Domain

end
-- ==== Proof.lean ====
/-
  A batched graph convolution with symmetric normalization: the kernel against its reference, on the extended reals.

  For each batch, with node features X, weights W, adjacency A and T = X W, the reference forms Ã = A + I, the degrees
  r(n) = Σₘ Ã(n, m), the scaling d(n) = r(n)^(-1/2) where r(n) > 0 and 0 elsewhere, and returns
  max(Σₘ (d(n) Ã(n, m) d(m)) T(m, u), 0).  The kernel, one grid point per batch, never forms Ã: it takes
  d(n) = rsqrt(Σₘ A(n, m) + 1) unguarded and returns max(d(n) Σₘ A(n, m) (T(m, u) d(m)) + d(n)² T(n, u), 0).

  The precondition says every input entry is finite and the adjacency is entrywise nonnegative.  Then every degree is a
  real number at least 1, so the guard always passes, the power -1/2 and the reciprocal square root are the same positive
  real, and, all entries being real, the sum over m distributes: A's share is the kernel's aggregation and the identity's
  share is the single term m = n, the kernel's d(n)² T(n, u).  Matrix products into a zero accumulator, lane sums and
  changes of float format read on the extended reals as the plain sums and the identity.

  The kernel's result array is read off its run block by block (one block per batch, the blocks cover the array); the
  reference's result is read off its run one operation at a time; the two are one function of the arguments.
-/
import proofs.«180018_j39444979646770_1_alg».proof.Defs
import proofs.«180018_j39444979646770_1_alg».proof.Proof.Gen.Kernel
import proofs.«180018_j39444979646770_1_alg».proof.Proof.Gen.Kernel.Skeleton
import proofs.«180018_j39444979646770_1_alg».proof.Proof.Gen.Kernel.Launch
import proofs.«180018_j39444979646770_1_alg».proof.Proof.Gen.Kernel.Points
import proofs.«180018_j39444979646770_1_alg».proof.Proof.Gen.Kernel.Frame
import proofs.«180018_j39444979646770_1_alg».proof.Proof.Gen.KernelIdeal
import proofs.«180018_j39444979646770_1_alg».proof.Proof.Gen.KernelIdeal.Skeleton
import proofs.«180018_j39444979646770_1_alg».proof.Proof.Gen.KernelIdeal.Launch
import proofs.«180018_j39444979646770_1_alg».proof.Proof.Gen.KernelIdeal.Points
import proofs.«180018_j39444979646770_1_alg».proof.Proof.Gen.KernelIdeal.Frame
import proofs.«180018_j39444979646770_1_alg».proof.Proof.Gen.ReferenceIdeal
import proofs.«180018_j39444979646770_1_alg».proof.Proof.Gen.Pre_finite_inputs
import proofs.«180018_j39444979646770_1_alg».proof.Proof.Gen.KernelIdeal.Value
import proofs.«180018_j39444979646770_1_alg».proof.Proof.Gen.ReferenceIdeal.Run
import proofs.«180018_j39444979646770_1_alg».proof.Proof.Gen.ReferenceIdeal.Read
import proofs.«180018_j39444979646770_1_alg».proof.Proof.NormSpec
import proofs.«180018_j39444979646770_1_alg».proof.Proof.RefRead
import proofs.«180018_j39444979646770_1_alg».proof.Proof.KernelValue
import proofs.«180018_j39444979646770_1_alg».proof.Proof.Domain
import Idealize.ShloMosaic.Adequacy
import Idealize.ShloMosaic.Init

noncomputable section

namespace Cert.GraphConv

open Idealize.ShloMosaic Idealize.ShloMosaic.ValueIdx

/-- Under the precondition the reference's result is the array G of its arguments: its entries are real and the
    adjacency nonnegative, so the normalized-matrix form equals the self-loop-separated form at every index. -/
theorem reference_eq_G (X : (⟨Cert.ReferenceIdeal.S16x2048x64, .f32⟩ : BufTy).Contents (Elt Ideal))
    (A : (⟨Cert.ReferenceIdeal.S16x2048x2048, .f32⟩ : BufTy).Contents (Elt Ideal))
    (W : (⟨Cert.ReferenceIdeal.S64x64, .f32⟩ : BufTy).Contents (Elt Ideal))
    (hpre : Cert.Pre_finite_inputs.fn (F := Ideal) X A W = fun _ => 1#1) :
    Cert.ReferenceIdeal.Read.val_main_v23 (F := Ideal) X A W = G X A W := by
  obtain ⟨hX, hA, hW, hA0⟩ := Domain.of_pre X A W hpre
  choose x hx using hX
  choose a ha using hA
  choose w hw using hW
  funext i
  rw [Ref.result_apply]
  unfold G
  have eX : (fun (n : Fin 2048) (f : Fin 64) => X (ix3 (i 0) n f)) = fun n f => ((x (ix3 (i 0) n f) : ℝ) : EReal) :=
    funext fun n => funext fun f => hx _
  have eA : (fun (n k : Fin 2048) => A (ix3 (i 0) n k)) = fun n k => ((a (ix3 (i 0) n k) : ℝ) : EReal) :=
    funext fun n => funext fun k => ha _
  have eW : (fun (f u : Fin 64) => W (ix2 f u)) = fun f u => ((w (ix2 f u) : ℝ) : EReal) :=
    funext fun f => funext fun u => hw _
  rw [eX, eA, eW]
  refine outR_eq_outK _ _ _ (fun n k => ?_) Ref.eyeR Ref.eyeR_eq (i 1) (i 2)
  have h0 := hA0 (ix3 (i 0) n k)
  rw [ha] at h0
  exact EReal.coe_nonneg.mp h0

end Cert.GraphConv

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both runs end with the result array at G of the (agreeing) arguments. -/
theorem algebraic : Cert.algebraic_KernelIdeal_ReferenceIdeal := by
  intro m ρ m' ρ' hpre hagree
  refine ⟨_, Cert.GraphConv.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v23_eq _ _ _).trans (Cert.GraphConv.reference_eq_G _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
